-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S16 .f32) (main_arg6 : FVec F S16x16 .f32) (main_arg7 : FVec F S16x32 .f32) (main_arg8 : FVec F S32 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_v33

def fn {F : FTy → Type} [FloatOps F] (main_arg0 : FVec F S100000x16 .f32) (main_arg1 : IVec S2x3200000 32) (main_arg2 : FVec F S16x16 .f32) (main_arg3 : FVec F S16 .f32) (main_arg4 : FVec F S16x16 .f32) (main_arg5 : FVec F S16 .f32) (main_arg6 : FVec F S16x16 .f32) (main_arg7 : FVec F S16x32 .f32) (main_arg8 : FVec F S32 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_v13 main_v16
-- ==== Kernel.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x32 : Shape := ⟨2, ![16, 32]⟩
abbrev S32 : Shape := ⟨1, ![32]⟩
abbrev S1x16 : Shape := ⟨2, ![1, 16]⟩
abbrev S5000x16 : Shape := ⟨2, ![5000, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 43
  | .vmem => 17
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16x32, .f32⟩
  | .hbm, ⟨8, _⟩ => ⟨S32, .f32⟩
  | .hbm, ⟨9, _⟩ => ⟨S1x16, .f32⟩
  | .hbm, ⟨10, _⟩ => ⟨S100000x16, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S_, .f32⟩
  | .hbm, ⟨29, _⟩ => ⟨S3200000, .f32⟩
  | .hbm, ⟨30, _⟩ => ⟨S_, .f32⟩
  | .hbm, ⟨31, _⟩ => ⟨S100000, .f32⟩
  | .hbm, ⟨32, _⟩ => ⟨S3200000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S1x16, .f32⟩
  | .hbm, ⟨41, _⟩ => ⟨S1x32, .f32⟩
  | .hbm, ⟨42, _⟩ => ⟨S100000x32, .f32⟩
  | .local _ .vmem, ⟨0, _⟩ => ⟨S5000x16, .f32⟩
  | .local _ .vmem, ⟨1, _⟩ => ⟨S5000x16, .f32⟩
  | .local _ .vmem, ⟨2, _⟩ => ⟨S16x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S16x16, .f32⟩
  | .local _ .vmem, ⟨11, _⟩ => ⟨S1x16, .f32⟩
  | .local _ .vmem, ⟨12, _⟩ => ⟨S16x16, .f32⟩
  | .local _ .vmem, ⟨13, _⟩ => ⟨S16x32, .f32⟩
  | .local _ .vmem, ⟨14, _⟩ => ⟨S1x32, .f32⟩
  | .local _ .vmem, ⟨15, _⟩ => ⟨S5000x32, .f32⟩
  | .local _ .vmem, ⟨16, _⟩ => ⟨S5000x32, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S5000x16_S16x16_S5000x16_1_0_0_1_n_n_wf : DotDims.WF S5000x16 S16x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S100000x32.size a
  hwx1_7 : ∀ i : grid1.Coords, EltTy.bits .f32 = 32 ∨ (Rect.block (s := S100000x32) S5000x32.size (cc1_transform_7 i) (hinb1_7 i)).WholeWords (EltTy.packing .f32)

variable [Facts₀]

def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S1x16 : Shape := ⟨2, ![1, 16]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩

abbrev nBuf : Space → Nat
  | .hbm => 58
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16x32, .f32⟩
  | .hbm, ⟨8, _⟩ => ⟨S32, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x16, .f32⟩
  | .hbm, ⟨14, _⟩ => ⟨S1x16, .f32⟩
  | .hbm, ⟨15, _⟩ => ⟨S100000x16, .f32⟩
  | .hbm, ⟨16, _⟩ => ⟨S100000x16, .f32⟩
  | .hbm, ⟨17, _⟩ => ⟨S_, .f32⟩
  | .hbm, ⟨18, _⟩ => ⟨S100000x16, .f32⟩
  | .hbm, ⟨19, _⟩ => ⟨S100000x16, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S_, .f32⟩
  | .hbm, ⟨30, _⟩ => ⟨S100000x16, .f32⟩
  | .hbm, ⟨31, _⟩ => ⟨S3200000x1, .i32⟩
  | .hbm, ⟨32, _⟩ => ⟨S100000x16, .f32⟩
  | .hbm, ⟨33, _⟩ => ⟨S_, .f32⟩
  | .hbm, ⟨34, _⟩ => ⟨S3200000, .f32⟩
  | .hbm, ⟨35, _⟩ => ⟨S_, .f32⟩
  | .hbm, ⟨36, _⟩ => ⟨S100000, .f32⟩
  | .hbm, ⟨37, _⟩ => ⟨S3200000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S1x16, .f32⟩
  | .hbm, ⟨47, _⟩ => ⟨S100000x16, .f32⟩
  | .hbm, ⟨48, _⟩ => ⟨S100000x16, .f32⟩
  | .hbm, ⟨49, _⟩ => ⟨S100000x16, .f32⟩
  | .hbm, ⟨50, _⟩ => ⟨S100000x16, .f32⟩
  | .hbm, ⟨51, _⟩ => ⟨S_, .f32⟩
  | .hbm, ⟨52, _⟩ => ⟨S100000x16, .f32⟩
  | .hbm, ⟨53, _⟩ => ⟨S100000x16, .f32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S100000x32, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x16_S16x16_S100000x16_1_0_0_1_n_n_wf : DotDims.WF S100000x16 S16x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x32_S100000x32_1_0_0_1_n_n_wf : DotDims.WF S100000x16 S16x32 S100000x32 [1] [0] [0] [1] [] []

variable [Facts₀]

def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelRun.lean ====
/-
  The idealized kernel's run, read to the end: the program is two pipelined kernel regions between stretches of
  host operations, and the buffer contents at the boundaries form a fold from the launch memory — the host stretch
  before a region applied to what the previous region left, a region's arrays replaced by what its write-backs
  leave.  The launch theorem for such a program ends with every unscoped buffer holding the last boundary's contents;
  here that conclusion is kept for the result buffer too, beside the argument buffers, which end as launched.
-/
import proofs.«145777_j64484638982411_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents (the second region's output array after all its write-backs) and the arguments as launched. -/
theorem run_last : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Out

end
-- ==== Proof.Dense.lean ====
/-
  The two kernel bodies read at an entry, on the extended reals.  Each is a dense layer on a block of 5000 rows:
  a product of the block with a 16-column weight matrix into a zero accumulator is, entry by entry, the sum over the
  sixteen inner positions; a bias row [1, n] spread over the rows adds its entry of the same column; the rectifier is
  the maximum with zero; the changes of float format are the identity.
-/
import proofs.«145777_j64484638982411_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen
open Idealize.ShloMosaic Idealize.ShloMosaic.ValueIdx

/-- A [5000,16] block times a [16,16] matrix into the zero accumulator, at row `p` and column `q`: the sum over the
    inner position `l` of the block's entry (p, l) times the matrix's entry (l, q).  First the operand positions the
    product reads at an output position and an inner position, coordinate by coordinate. -/
theorem mm16_l0 (j : S5000x16.Idx) (k : dot_S5000x16_S16x16_S5000x16_1_0_0_1_n_n.contr.Idx) : (dot_S5000x16_S16x16_S5000x16_1_0_0_1_n_n.lhsIdx j k 0).val = (j 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem mm16_l1 (j : S5000x16.Idx) (k : dot_S5000x16_S16x16_S5000x16_1_0_0_1_n_n.contr.Idx) : (dot_S5000x16_S16x16_S5000x16_1_0_0_1_n_n.lhsIdx j k 1).val = (k ⟨0, by decide⟩).val :=
  dot_S5000x16_S16x16_S5000x16_1_0_0_1_n_n.lhsIdx_val_of_single rfl j k
theorem mm16_r0 (j : S5000x16.Idx) (k : dot_S5000x16_S16x16_S5000x16_1_0_0_1_n_n.contr.Idx) : (dot_S5000x16_S16x16_S5000x16_1_0_0_1_n_n.rhsIdx j k 0).val = (k ⟨0, by decide⟩).val :=
  dot_S5000x16_S16x16_S5000x16_1_0_0_1_n_n.rhsIdx_val_of_single rfl j k
theorem mm16_r1 (j : S5000x16.Idx) (k : dot_S5000x16_S16x16_S5000x16_1_0_0_1_n_n.contr.Idx) : (dot_S5000x16_S16x16_S5000x16_1_0_0_1_n_n.rhsIdx j k 1).val = (j 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl
theorem mm16_apply {φ₁ φ₂ : FTy} (a : FVec Ideal S5000x16 φ₁) (w : FVec Ideal S16x16 φ₂) (p : Fin 5000) (q : Fin 16) :
    matmul dot_S5000x16_S16x16_S5000x16_1_0_0_1_n_n none a w (constant (F := Ideal) S5000x16 .f32 0x00000000#32) (ix2 p q)
      = ∑ l : Fin 16, a (ix2 p l) * w (ix2 l q) := by
  show FloatOps.matmul dot_S5000x16_S16x16_S5000x16_1_0_0_1_n_n none a w (constant (F := Ideal) S5000x16 .f32 0x00000000#32) (ix2 p q) = _
  rw [Ideal.matmul_constant_zero_apply, ← Equiv.sum_comp (contrEquiv1 dot_S5000x16_S16x16_S5000x16_1_0_0_1_n_n 16 rfl rfl).symm]
  refine Finset.sum_congr rfl fun k _ => ?_
  have hk := contrEquiv1_symm_val dot_S5000x16_S16x16_S5000x16_1_0_0_1_n_n 16 rfl rfl k
  have el : dot_S5000x16_S16x16_S5000x16_1_0_0_1_n_n.lhsIdx (ix2 p q) ((contrEquiv1 dot_S5000x16_S16x16_S5000x16_1_0_0_1_n_n 16 rfl rfl).symm k) = ix2 p k :=
    funext fun a => Fin.ext (by
      match a with
      | ⟨0, _⟩ => exact mm16_l0 _ _
      | ⟨1, _⟩ => exact (mm16_l1 _ _).trans hk)
  have er : dot_S5000x16_S16x16_S5000x16_1_0_0_1_n_n.rhsIdx (ix2 p q) ((contrEquiv1 dot_S5000x16_S16x16_S5000x16_1_0_0_1_n_n 16 rfl rfl).symm k) = ix2 k q :=
    funext fun a => Fin.ext (by
      match a with
      | ⟨0, _⟩ => exact (mm16_r0 _ _).trans hk
      | ⟨1, _⟩ => exact mm16_r1 _ _)
  rw [el, er]

/-- The same for a [5000,16] block times a [16,32] matrix. -/
theorem mm32_l0 (j : S5000x32.Idx) (k : dot_S5000x16_S16x32_S5000x32_1_0_0_1_n_n.contr.Idx) : (dot_S5000x16_S16x32_S5000x32_1_0_0_1_n_n.lhsIdx j k 0).val = (j 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem mm32_l1 (j : S5000x32.Idx) (k : dot_S5000x16_S16x32_S5000x32_1_0_0_1_n_n.contr.Idx) : (dot_S5000x16_S16x32_S5000x32_1_0_0_1_n_n.lhsIdx j k 1).val = (k ⟨0, by decide⟩).val :=
  dot_S5000x16_S16x32_S5000x32_1_0_0_1_n_n.lhsIdx_val_of_single rfl j k
theorem mm32_r0 (j : S5000x32.Idx) (k : dot_S5000x16_S16x32_S5000x32_1_0_0_1_n_n.contr.Idx) : (dot_S5000x16_S16x32_S5000x32_1_0_0_1_n_n.rhsIdx j k 0).val = (k ⟨0, by decide⟩).val :=
  dot_S5000x16_S16x32_S5000x32_1_0_0_1_n_n.rhsIdx_val_of_single rfl j k
theorem mm32_r1 (j : S5000x32.Idx) (k : dot_S5000x16_S16x32_S5000x32_1_0_0_1_n_n.contr.Idx) : (dot_S5000x16_S16x32_S5000x32_1_0_0_1_n_n.rhsIdx j k 1).val = (j 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl
theorem mm32_apply {φ₁ φ₂ : FTy} (a : FVec Ideal S5000x16 φ₁) (w : FVec Ideal S16x32 φ₂) (p : Fin 5000) (q : Fin 32) :
    matmul dot_S5000x16_S16x32_S5000x32_1_0_0_1_n_n none a w (constant (F := Ideal) S5000x32 .f32 0x00000000#32) (ix2 p q)
      = ∑ l : Fin 16, a (ix2 p l) * w (ix2 l q) := by
  show FloatOps.matmul dot_S5000x16_S16x32_S5000x32_1_0_0_1_n_n none a w (constant (F := Ideal) S5000x32 .f32 0x00000000#32) (ix2 p q) = _
  rw [Ideal.matmul_constant_zero_apply, ← Equiv.sum_comp (contrEquiv1 dot_S5000x16_S16x32_S5000x32_1_0_0_1_n_n 16 rfl rfl).symm]
  refine Finset.sum_congr rfl fun k _ => ?_
  have hk := contrEquiv1_symm_val dot_S5000x16_S16x32_S5000x32_1_0_0_1_n_n 16 rfl rfl k
  have el : dot_S5000x16_S16x32_S5000x32_1_0_0_1_n_n.lhsIdx (ix2 p q) ((contrEquiv1 dot_S5000x16_S16x32_S5000x32_1_0_0_1_n_n 16 rfl rfl).symm k) = ix2 p k :=
    funext fun a => Fin.ext (by
      match a with
      | ⟨0, _⟩ => exact mm32_l0 _ _
      | ⟨1, _⟩ => exact (mm32_l1 _ _).trans hk)
  have er : dot_S5000x16_S16x32_S5000x32_1_0_0_1_n_n.rhsIdx (ix2 p q) ((contrEquiv1 dot_S5000x16_S16x32_S5000x32_1_0_0_1_n_n 16 rfl rfl).symm k) = ix2 k q :=
    funext fun a => Fin.ext (by
      match a with
      | ⟨0, _⟩ => exact (mm32_r0 _ _).trans hk
      | ⟨1, _⟩ => exact mm32_r1 _ _)
  rw [el, er]

/-- A bias row [1,16] spread over 5000 rows, at (p, q): the row's entry in column `q`. -/
theorem row16_apply (b : FVec Ideal S1x16 .f32) (p : Fin 5000) (q : Fin 16) :
    broadcastTo S5000x16 (shapeCast S1x16 b shapeCasts_S1x16_S1x16) broadcasts_S1x16_S5000x16 (ix2 p q) = b (ix2 0 q) := by
  rw [shapeCast_self]
  exact broadcastTo_apply b broadcasts_S1x16_S5000x16 (ix2 p q) (ix2 0 q) (fun a => match a with
    | ⟨0, _⟩ => by show 0 = if (1 : Nat) = 1 then 0 else _; rw [if_pos rfl]
    | ⟨1, _⟩ => by show q.val = if (16 : Nat) = 1 then 0 else q.val; rw [if_neg (by decide)])

/-- A bias row [1,32] spread over 5000 rows, at (p, q): the row's entry in column `q`. -/
theorem row32_apply (b : FVec Ideal S1x32 .f32) (p : Fin 5000) (q : Fin 32) :
    broadcastTo S5000x32 (shapeCast S1x32 b shapeCasts_S1x32_S1x32) broadcasts_S1x32_S5000x32 (ix2 p q) = b (ix2 0 q) := by
  rw [shapeCast_self]
  exact broadcastTo_apply b broadcasts_S1x32_S5000x32 (ix2 p q) (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])

/-- The first body's stored value at (p, q): the rectified affine image of row `p` of the block,
    max (Σ_l x(p,l)·w(l,q) + b(0,q), 0). -/
theorem pay0_apply (x : Vec Ideal S5000x16 .f32) (w : Vec Ideal S16x16 .f32) (b : Vec Ideal S1x16 .f32) (p : Fin 5000) (q : Fin 16) :
    k0_pay1 (F := Ideal) x w b (ix2 p q)
      = max ((∑ l : Fin 16, x (ix2 p l) * w (ix2 l q)) + b (ix2 0 q)) (Ideal.ofBits .f32 0x00000000#32) := by
  unfold k0_pay1
  rw [maximumf_apply, addf_apply, mm16_apply, row16_apply]
  rfl

/-- The second body's stored value at (p, q): with the hidden row
    r(k) = max ((Σ_l a(p,l)·wl(l,k) + bl(0,k)) + Σ_l h(p,l)·wr(l,k), 0), the affine image Σ_k r(k)·w2(k,q) + b2(0,q). -/
theorem pay1_apply (a h : Vec Ideal S5000x16 .f32) (wl wr : Vec Ideal S16x16 .f32) (bl : Vec Ideal S1x16 .f32)
    (w2 : Vec Ideal S16x32 .f32) (b2 : Vec Ideal S1x32 .f32) (p : Fin 5000) (q : Fin 32) :
    k1_pay1 (F := Ideal) a h wl wr bl w2 b2 (ix2 p q)
      = (∑ k : Fin 16, max (((∑ l : Fin 16, a (ix2 p l) * wl (ix2 l k)) + bl (ix2 0 k)) + ∑ l : Fin 16, h (ix2 p l) * wr (ix2 l k))
          (Ideal.ofBits .f32 0x00000000#32) * w2 (ix2 k q)) + b2 (ix2 0 q) := by
  unfold k1_pay1
  rw [addf_apply, mm32_apply, row32_apply]
  refine congrArg (· + b2 (ix2 0 q)) (Finset.sum_congr rfl fun k _ => ?_)
  rw [truncf_apply, maximumf_apply, addf_apply, addf_apply, mm16_apply, mm16_apply, row16_apply]
  simp only [shapeCast_self]
  rfl

end Cert.KernelIdeal.Dense

end
-- ==== Proof.Net.lean ====
/-
  What the network computes, entry by entry, on the extended reals.  A node's hidden features are the rectified affine
  image of its input row; the output row of a node is the affine image of a second rectified layer that adds the images
  of the node's aggregated neighbour features and of its own hidden features.  Biases are rows [1, n]; zero is kept as
  the all-zero float word.
-/
import Idealize.ShloMosaic.PureOps.Ideal
import Idealize.ShloMosaic.Lib.ValueIdx

noncomputable section

namespace Cert.Net

open Idealize.ShloMosaic Idealize.ShloMosaic.ValueIdx

abbrev Nodes16 : Shape := ⟨2, ![100000, 16]⟩
abbrev Nodes32 : Shape := ⟨2, ![100000, 32]⟩
abbrev W16x16 : Shape := ⟨2, ![16, 16]⟩
abbrev W16x32 : Shape := ⟨2, ![16, 32]⟩
abbrev Row16 : Shape := ⟨2, ![1, 16]⟩
abbrev Row32 : Shape := ⟨2, ![1, 32]⟩

/-- The rectifier's zero: the all-zero float word. -/
abbrev zero : Ideal .f32 := Ideal.ofBits .f32 0x00000000#32

/-- Hidden feature `j` of node `n`: max (Σ_l x(n,l)·w(l,j) + b(0,j), 0). -/
def hiddenAt (x : Nodes16.Idx → Ideal .f32) (w : W16x16.Idx → Ideal .f32) (b : Row16.Idx → Ideal .f32) (n : Fin 100000) (j : Fin 16) : Ideal .f32 :=
  max ((∑ l : Fin 16, x (ix2 n l) * w (ix2 l j)) + b (ix2 0 j)) zero

/-- The hidden features as an array [100000, 16]. -/
def hidden (x : Nodes16.Idx → Ideal .f32) (w : W16x16.Idx → Ideal .f32) (b : Row16.Idx → Ideal .f32) : Nodes16.Idx → Ideal .f32 :=
  fun i => hiddenAt x w b ⟨(i 0).val, (i 0).isLt⟩ ⟨(i 1).val, (i 1).isLt⟩

theorem hidden_ix2 (x : Nodes16.Idx → Ideal .f32) (w : W16x16.Idx → Ideal .f32) (b : Row16.Idx → Ideal .f32) (n : Fin 100000) (j : Fin 16) :
    hidden x w b (ix2 n j) = hiddenAt x w b n j := rfl

/-- Output feature `j` of node `n` from the aggregated features `a` and the hidden features `h`:
    Σ_k max ((Σ_l a(n,l)·wl(l,k) + bl(0,k)) + Σ_l h(n,l)·wr(l,k), 0) · w2(k,j) + b2(0,j). -/
def outputAt (a h : Nodes16.Idx → Ideal .f32) (wl : W16x16.Idx → Ideal .f32) (bl : Row16.Idx → Ideal .f32) (wr : W16x16.Idx → Ideal .f32)
    (w2 : W16x32.Idx → Ideal .f32) (b2 : Row32.Idx → Ideal .f32) (n : Fin 100000) (j : Fin 32) : Ideal .f32 :=
  (∑ k : Fin 16, max (((∑ l : Fin 16, a (ix2 n l) * wl (ix2 l k)) + bl (ix2 0 k)) + ∑ l : Fin 16, h (ix2 n l) * wr (ix2 l k)) zero * w2 (ix2 k j))
    + b2 (ix2 0 j)

/-- The output as an array [100000, 32]. -/
def output (a h : Nodes16.Idx → Ideal .f32) (wl : W16x16.Idx → Ideal .f32) (bl : Row16.Idx → Ideal .f32) (wr : W16x16.Idx → Ideal .f32)
    (w2 : W16x32.Idx → Ideal .f32) (b2 : Row32.Idx → Ideal .f32) : Nodes32.Idx → Ideal .f32 :=
  fun i => outputAt a h wl bl wr w2 b2 ⟨(i 0).val, (i 0).isLt⟩ ⟨(i 1).val, (i 1).isLt⟩

theorem output_ix2 (a h : Nodes16.Idx → Ideal .f32) (wl : W16x16.Idx → Ideal .f32) (bl : Row16.Idx → Ideal .f32) (wr : W16x16.Idx → Ideal .f32)
    (w2 : W16x32.Idx → Ideal .f32) (b2 : Row32.Idx → Ideal .f32) (n : Fin 100000) (j : Fin 32) :
    output a h wl bl wr w2 b2 (ix2 n j) = outputAt a h wl bl wr w2 b2 n j := rfl

end Cert.Net

end
-- ==== Proof.Region0.lean ====
/-
  The first region, read as one array.  Its grid has 20 points; point `t` fetches rows 5000·t … 5000·t + 4999 of the
  input, the whole weight matrix and the whole bias row, and writes back the same rows of the output.  So what point
  `t` writes back is block `t` of the hidden-feature array of the region's entry contents, the 20 blocks cover the
  output array, and the array ends at the hidden features.
-/
import proofs.«145777_j64484638982411_1_alg».proof.Proof.Gen.KernelIdeal.Frame
import proofs.«145777_j64484638982411_1_alg».proof.Proof.Dense
import proofs.«145777_j64484638982411_1_alg».proof.Proof.Net
import Idealize.ShloMosaic.Lib.Pipeline.Value

set_option maxRecDepth 16384

noncomputable section

namespace Cert.KernelIdeal.Region0

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value on a block whose rows are rows 5000·T … of an array `X`, with the whole matrix `W` and
    bias row `B`: at (p, q) the hidden feature `q` of node 5000·T + p. -/
theorem block_hidden (X : Net.Nodes16.Idx → Ideal .f32) (W : Net.W16x16.Idx → Ideal .f32) (B : Net.Row16.Idx → Ideal .f32)
    (x : Vec Ideal S5000x16 .f32) (w : Vec Ideal S16x16 .f32) (b : Vec Ideal S1x16 .f32) (T : Nat) (hT : T < 20)
    (hx : ∀ (p : Fin 5000) (l : Fin 16), x (ix2 p l) = X (ix2 (⟨T * 5000 + p.val, by have := p.isLt; omega⟩ : Fin 100000) l))
    (hw : ∀ y, w y = W y) (hb : ∀ y, b y = B y) (p : Fin 5000) (q : Fin 16) :
    k0_pay1 (F := Ideal) x w b (ix2 p q) = Net.hidden X W B (ix2 (⟨T * 5000 + p.val, by have := p.isLt; omega⟩ : Fin 100000) q) := by
  rw [pay0_apply, Net.hidden_ix2]
  unfold Net.hiddenAt
  simp only [hx, hw, hb]

/-- The printed index maps over the grid: the row-blocked windows are at block `t`, the whole-array windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the hidden features of the arrays as the region finds them. -/
theorem flushed_eq (c : Dev nD) (t : Fin cfg0.N) :
    (dat0 V c).flushed 3 t = ((cfg0.win 3).blk t).view.read (Elt Ideal) (Net.hidden (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S5000x16) hz, View.ld_unit_zero (S := S16x16) hz, View.ld_unit_zero (S := S1x16) hz]
  obtain ⟨e0, e1, e2, e3, e4, e5, e6, e7⟩ := idx_facts t
  have ht : t.val < 20 := lt_of_lt_of_eq t.isLt N_0
  funext j
  have hj0 : (j 0).val < 5000 := (j 0).isLt
  have hj1 : (j 1).val < 16 := (j 1).isLt
  have hj : j = ix2 (⟨(j 0).val, hj0⟩ : Fin 5000) (⟨(j 1).val, hj1⟩ : Fin 16) :=
    funext fun a => by match a with | ⟨0, _⟩ => rfl | ⟨1, _⟩ => rfl
  have he : ((cfg0.win 3).blk t).view.emb j = ix2 (⟨t.val * 5000 + (j 0).val, by omega⟩ : Fin 100000) (⟨(j 1).val, hj1⟩ : Fin 16) :=
    funext fun a => Fin.ext (by
      match a with
      | ⟨0, _⟩ => show win0_3.index t (0 : Fin 2) * 5000 + 1 * (j 0).val = t.val * 5000 + (j 0).val; rw [e6]; omega
      | ⟨1, _⟩ => show win0_3.index t (1 : Fin 2) * 16 + 1 * (j 1).val = (j 1).val; rw [e7]; omega)
  show k0_pay1 (F := Ideal) (iblk0 V c 0 t) (iblk0 V c 1 t) (iblk0 V c 2 t) j
      = Net.hidden (V c main_arg0) (V c main_arg2) (V c main_v0) (((cfg0.win 3).blk t).view.emb j)
  refine (congrArg (k0_pay1 (F := Ideal) (iblk0 V c 0 t) (iblk0 V c 1 t) (iblk0 V c 2 t)) hj).trans ?_
  refine (block_hidden (V c main_arg0) (V c main_arg2) (V c main_v0) (iblk0 V c 0 t) (iblk0 V c 1 t) (iblk0 V c 2 t) t.val ht
    (fun p l => ?_) (fun y => ?_) (fun y => ?_) ⟨(j 0).val, hj0⟩ ⟨(j 1).val, hj1⟩).trans
    (congrArg (Net.hidden (V c main_arg0) (V c main_arg2) (V c main_v0)) he).symm
  · show V c main_arg0 (((cfg0.win 0).blk t).view.emb (ix2 p l)) = V c main_arg0 _
    refine congrArg (V c main_arg0) (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 16 + 1 * l.val = l.val; rw [e1]; omega
  · show V c main_arg2 (((cfg0.win 1).blk t).view.emb y) = V c main_arg2 y
    refine congrArg (V c main_arg2) (funext fun a => Fin.ext ?_)
    match a with
    | ⟨0, _⟩ => show win0_1.index t (0 : Fin 2) * 16 + 1 * (y 0).val = (y 0).val; rw [e2]; omega
    | ⟨1, _⟩ => show win0_1.index t (1 : Fin 2) * 16 + 1 * (y 1).val = (y 1).val; rw [e3]; omega
  · show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; rw [e4]; omega
    | ⟨1, _⟩ => show win0_2.index t (1 : Fin 2) * 16 + 1 * (y 1).val = (y 1).val; rw [e5]; omega

/-- An entry of the output array is in point `t`'s block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v1).slice (win0_3.rect t)).set ↔ _
  rw [View.set_slice_whole, Rect.mem_set_unit]
  exact Iff.rfl

/-- Row `r` of the output is written back by point `r / 5000`. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hq : (i 0).val / 5000 < cfg0.N := lt_of_lt_of_eq (by omega : (i 0).val / 5000 < 20) N_0.symm
  refine ⟨⟨(i 0).val / 5000, hq⟩, flush0_3 _, ?_⟩
  rw [mem_blk]
  obtain ⟨-, -, -, -, -, -, e6, e7⟩ := idx_facts ⟨(i 0).val / 5000, hq⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 16 ≤ (i 1).val ∧ (i 1).val < win0_3.index _ (1 : Fin 2) * 16 + 16
    rw [e7]; omega

/-- The output array after the region: the hidden features of the entry contents. -/
theorem final (c : Dev nD) :
    (dat0 V c).arrAt 3 cfg0.N = Net.hidden (V c main_arg0) (V c main_arg2) (V c main_v0) :=
  (dat0 V c).arrAt_eq_of_cover 3 (Net.hidden (V c main_arg0) (V c main_arg2) (V c main_v0)) (fun t _ => flushed_eq V c t) cover

end Cert.KernelIdeal.Region0

end
-- ==== Proof.Region1.lean ====
/-
  The second region, read as one array.  Its grid has 20 points; point `t` fetches rows 5000·t … 5000·t + 4999 of the
  aggregated features and of the hidden features, the three weight matrices and the two bias rows whole, and writes
  back the same rows of the output.  So what point `t` writes back is block `t` of the output layer of the region's
  entry contents, the 20 blocks cover the output array, and the array ends at the output layer.
-/
import proofs.«145777_j64484638982411_1_alg».proof.Proof.Gen.KernelIdeal.Frame
import proofs.«145777_j64484638982411_1_alg».proof.Proof.Dense
import proofs.«145777_j64484638982411_1_alg».proof.Proof.Net
import Idealize.ShloMosaic.Lib.Pipeline.Value

set_option maxRecDepth 16384

noncomputable section

namespace Cert.KernelIdeal.Region1

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value on blocks whose rows are rows 5000·T … of the arrays `A` and `H`, with the matrices and
    bias rows whole: at (p, q) the output feature `q` of node 5000·T + p. -/
theorem block_output (A H : Net.Nodes16.Idx → Ideal .f32) (WL : Net.W16x16.Idx → Ideal .f32) (BL : Net.Row16.Idx → Ideal .f32)
    (WR : Net.W16x16.Idx → Ideal .f32) (W2 : Net.W16x32.Idx → Ideal .f32) (B2 : Net.Row32.Idx → Ideal .f32)
    (a h : Vec Ideal S5000x16 .f32) (wl wr : Vec Ideal S16x16 .f32) (bl : Vec Ideal S1x16 .f32) (w2 : Vec Ideal S16x32 .f32) (b2 : Vec Ideal S1x32 .f32)
    (T : Nat) (hT : T < 20)
    (ha : ∀ (p : Fin 5000) (l : Fin 16), a (ix2 p l) = A (ix2 (⟨T * 5000 + p.val, by have := p.isLt; omega⟩ : Fin 100000) l))
    (hh : ∀ (p : Fin 5000) (l : Fin 16), h (ix2 p l) = H (ix2 (⟨T * 5000 + p.val, by have := p.isLt; omega⟩ : Fin 100000) l))
    (hwl : ∀ y, wl y = WL y) (hbl : ∀ y, bl y = BL y) (hwr : ∀ y, wr y = WR y) (hw2 : ∀ y, w2 y = W2 y) (hb2 : ∀ y, b2 y = B2 y)
    (p : Fin 5000) (q : Fin 32) :
    k1_pay1 (F := Ideal) a h wl wr bl w2 b2 (ix2 p q)
      = Net.output A H WL BL WR W2 B2 (ix2 (⟨T * 5000 + p.val, by have := p.isLt; omega⟩ : Fin 100000) q) := by
  rw [pay1_apply, Net.output_ix2]
  unfold Net.outputAt
  simp only [ha, hh, hwl, hbl, hwr, hw2, hb2]

/-- The printed index maps over the grid: the row-blocked windows are at block `t`, the whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the output layer of the arrays as the region finds them. -/
theorem flushed_eq (c : Dev nD) (t : Fin cfg1.N) :
    (dat1 V c).flushed 7 t = ((cfg1.win 7).blk t).view.read (Elt Ideal)
      (Net.output (V c main_v24) (V c main_v1) (V c main_arg4) (V c main_v25) (V c main_arg6) (V c main_arg7) (V c main_v26)) := by
  show (cfg1.win 7).cut (grid1.coords t) ((dat1 V c).after 7 t) = _
  rw [after1_7]
  unfold out1_7
  rw [View.canon_unit_zero hz]
  simp only [View.ld_unit_zero (S := S5000x16) hz, View.ld_unit_zero (S := S16x16) hz, View.ld_unit_zero (S := S1x16) hz,
    View.ld_unit_zero (S := S16x32) hz, View.ld_unit_zero (S := S1x32) hz]
  obtain ⟨e0, e1, e2, e3, e4, e5, e6, e7, e8, e9, e10, e11, e12, e13, e14, e15⟩ := idx_facts t
  have ht : t.val < 20 := lt_of_lt_of_eq t.isLt N_1
  funext j
  have hj0 : (j 0).val < 5000 := (j 0).isLt
  have hj1 : (j 1).val < 32 := (j 1).isLt
  have hj : j = ix2 (⟨(j 0).val, hj0⟩ : Fin 5000) (⟨(j 1).val, hj1⟩ : Fin 32) :=
    funext fun a => by match a with | ⟨0, _⟩ => rfl | ⟨1, _⟩ => rfl
  have he : ((cfg1.win 7).blk t).view.emb j = ix2 (⟨t.val * 5000 + (j 0).val, by omega⟩ : Fin 100000) (⟨(j 1).val, hj1⟩ : Fin 32) :=
    funext fun a => Fin.ext (by
      match a with
      | ⟨0, _⟩ => show win1_7.index t (0 : Fin 2) * 5000 + 1 * (j 0).val = t.val * 5000 + (j 0).val; rw [e14]; omega
      | ⟨1, _⟩ => show win1_7.index t (1 : Fin 2) * 32 + 1 * (j 1).val = (j 1).val; rw [e15]; omega)
  show k1_pay1 (F := Ideal) (iblk1 V c 0 t) (iblk1 V c 1 t) (iblk1 V c 2 t) (iblk1 V c 4 t) (iblk1 V c 3 t) (iblk1 V c 5 t) (iblk1 V c 6 t) j
      = Net.output (V c main_v24) (V c main_v1) (V c main_arg4) (V c main_v25) (V c main_arg6) (V c main_arg7) (V c main_v26) (((cfg1.win 7).blk t).view.emb j)
  refine (congrArg (k1_pay1 (F := Ideal) (iblk1 V c 0 t) (iblk1 V c 1 t) (iblk1 V c 2 t) (iblk1 V c 4 t) (iblk1 V c 3 t) (iblk1 V c 5 t) (iblk1 V c 6 t)) hj).trans ?_
  refine (block_output (V c main_v24) (V c main_v1) (V c main_arg4) (V c main_v25) (V c main_arg6) (V c main_arg7) (V c main_v26)
    (iblk1 V c 0 t) (iblk1 V c 1 t) (iblk1 V c 2 t) (iblk1 V c 4 t) (iblk1 V c 3 t) (iblk1 V c 5 t) (iblk1 V c 6 t) t.val ht
    (fun p l => ?_) (fun p l => ?_) (fun y => ?_) (fun y => ?_) (fun y => ?_) (fun y => ?_) (fun y => ?_) ⟨(j 0).val, hj0⟩ ⟨(j 1).val, hj1⟩).trans
    (congrArg (Net.output (V c main_v24) (V c main_v1) (V c main_arg4) (V c main_v25) (V c main_arg6) (V c main_arg7) (V c main_v26)) he).symm
  · show V c main_v24 (((cfg1.win 0).blk t).view.emb (ix2 p l)) = V c main_v24 _
    refine congrArg (V c main_v24) (funext fun a => Fin.ext ?_)
    match a with
    | ⟨0, _⟩ => show win1_0.index t (0 : Fin 2) * 5000 + 1 * p.val = t.val * 5000 + p.val; rw [e0]; omega
    | ⟨1, _⟩ => show win1_0.index t (1 : Fin 2) * 16 + 1 * l.val = l.val; rw [e1]; omega
  · show V c main_v1 (((cfg1.win 1).blk t).view.emb (ix2 p l)) = V c main_v1 _
    refine congrArg (V c main_v1) (funext fun a => Fin.ext ?_)
    match a with
    | ⟨0, _⟩ => show win1_1.index t (0 : Fin 2) * 5000 + 1 * p.val = t.val * 5000 + p.val; rw [e2]; omega
    | ⟨1, _⟩ => show win1_1.index t (1 : Fin 2) * 16 + 1 * l.val = l.val; rw [e3]; omega
  · show V c main_arg4 (((cfg1.win 2).blk t).view.emb y) = V c main_arg4 y
    refine congrArg (V c main_arg4) (funext fun a => Fin.ext ?_)
    match a with
    | ⟨0, _⟩ => show win1_2.index t (0 : Fin 2) * 16 + 1 * (y 0).val = (y 0).val; rw [e4]; omega
    | ⟨1, _⟩ => show win1_2.index t (1 : Fin 2) * 16 + 1 * (y 1).val = (y 1).val; rw [e5]; omega
  · show V c main_v25 (((cfg1.win 3).blk t).view.emb y) = V c main_v25 y
    refine congrArg (V c main_v25) (funext fun a => Fin.ext ?_)
    match a with
    | ⟨0, _⟩ => show win1_3.index t (0 : Fin 2) * 1 + 1 * (y 0).val = (y 0).val; rw [e6]; omega
    | ⟨1, _⟩ => show win1_3.index t (1 : Fin 2) * 16 + 1 * (y 1).val = (y 1).val; rw [e7]; omega
  · show V c main_arg6 (((cfg1.win 4).blk t).view.emb y) = V c main_arg6 y
    refine congrArg (V c main_arg6) (funext fun a => Fin.ext ?_)
    match a with
    | ⟨0, _⟩ => show win1_4.index t (0 : Fin 2) * 16 + 1 * (y 0).val = (y 0).val; rw [e8]; omega
    | ⟨1, _⟩ => show win1_4.index t (1 : Fin 2) * 16 + 1 * (y 1).val = (y 1).val; rw [e9]; omega
  · show V c main_arg7 (((cfg1.win 5).blk t).view.emb y) = V c main_arg7 y
    refine congrArg (V c main_arg7) (funext fun a => Fin.ext ?_)
    match a with
    | ⟨0, _⟩ => show win1_5.index t (0 : Fin 2) * 16 + 1 * (y 0).val = (y 0).val; rw [e10]; omega
    | ⟨1, _⟩ => show win1_5.index t (1 : Fin 2) * 32 + 1 * (y 1).val = (y 1).val; rw [e11]; omega
  · show V c main_v26 (((cfg1.win 6).blk t).view.emb y) = V c main_v26 y
    refine congrArg (V c main_v26) (funext fun a => Fin.ext ?_)
    match a with
    | ⟨0, _⟩ => show win1_6.index t (0 : Fin 2) * 1 + 1 * (y 0).val = (y 0).val; rw [e12]; omega
    | ⟨1, _⟩ => show win1_6.index t (1 : Fin 2) * 32 + 1 * (y 1).val = (y 1).val; rw [e13]; omega

/-- An entry of the output array is in point `t`'s block iff each coordinate is in the block's range on its axis. -/
theorem mem_blk (t : Fin cfg1.N) (i : S100000x32.Idx) :
    i ∈ ((cfg1.win 7).blk t).view.set ↔ ∀ a : Fin 2, win1_7.index t a * S5000x32.size a ≤ (i a).val ∧ (i a).val < win1_7.index t a * S5000x32.size a + S5000x32.size a := by
  show i ∈ ((View.whole main_v27).slice (win1_7.rect t)).set ↔ _
  rw [View.set_slice_whole, Rect.mem_set_unit]
  exact Iff.rfl

/-- Row `r` of the output is written back by point `r / 5000`. -/
theorem cover (i : S100000x32.Idx) : ∃ t : Fin cfg1.N, (cfg1.win 7).flush t = true ∧ i ∈ ((cfg1.win 7).blk t).view.set := by
  have hi0 : (i 0).val < 100000 := (i 0).isLt
  have hi1 : (i 1).val < 32 := (i 1).isLt
  have hq : (i 0).val / 5000 < cfg1.N := lt_of_lt_of_eq (by omega : (i 0).val / 5000 < 20) N_1.symm
  refine ⟨⟨(i 0).val / 5000, hq⟩, flush1_7 _, ?_⟩
  rw [mem_blk]
  obtain ⟨-, -, -, -, -, -, -, -, -, -, -, -, -, -, e14, e15⟩ := idx_facts ⟨(i 0).val / 5000, hq⟩
  intro a
  match a with
  | ⟨0, _⟩ =>
    show win1_7.index _ (0 : Fin 2) * 5000 ≤ (i 0).val ∧ (i 0).val < win1_7.index _ (0 : Fin 2) * 5000 + 5000
    rw [e14]; show (i 0).val / 5000 * 5000 ≤ (i 0).val ∧ (i 0).val < (i 0).val / 5000 * 5000 + 5000; omega
  | ⟨1, _⟩ =>
    show win1_7.index _ (1 : Fin 2) * 32 ≤ (i 1).val ∧ (i 1).val < win1_7.index _ (1 : Fin 2) * 32 + 32
    rw [e15]; omega

/-- The output array after the region: the output layer of the entry contents. -/
theorem final (c : Dev nD) :
    (dat1 V c).arrAt 7 cfg1.N
      = Net.output (V c main_v24) (V c main_v1) (V c main_arg4) (V c main_v25) (V c main_arg6) (V c main_arg7) (V c main_v26) :=
  (dat1 V c).arrAt_eq_of_cover 7 _ (fun t _ => flushed_eq V c t) cover

end Cert.KernelIdeal.Region1

end
-- ==== Proof.Mean.lean ====
/-
  The mean aggregation over incoming edges as one function of the hidden features and the edge list: gather the
  source rows, add them up per destination node, and divide by the number of incoming edges (at least one).  Both
  programs apply these same host operations, so nothing here looks inside them; the reference's aggregated features
  are this function of its hidden features.
-/
import proofs.«145777_j64484638982411_1_alg».proof.Proof.Gen.ReferenceIdeal.Read

noncomputable section

namespace Cert.ReferenceIdeal.Mean

open Cert.ReferenceIdeal Cert.ReferenceIdeal.Gen Cert.ReferenceIdeal.Read Idealize.ShloMosaic Idealize.ShloMosaic.TcCoe

variable {F : FTy → Type} [FloatOps F]

/-- Per destination node, the sum of the rows of `h` gathered at the edges' sources divided by the larger of the
    number of incoming edges and one. -/
def mean (h : (⟨S100000x16, .f32⟩ : BufTy).Contents (Elt F)) (e : (⟨S2x3200000, .i32⟩ : BufTy).Contents (Elt F)) :
    (⟨S100000x16, .f32⟩ : BufTy).Contents (Elt F) :=
  Host.divf
    (Host.scatterAdd scatter_S100000x16_S3200000x1_S3200000x16_1_0_0_1 (val_main_v16 (F := F)) (val_main_v17 (F := F) e)
      (Host.gather gather_S100000x16_S3200000x1_S3200000x16_1_0_n_n_0_1_116 h (val_main_v14 (F := F) e)))
    (val_main_v26 (F := F) e)

/-- The reference's aggregated features are the mean aggregation of its hidden features. -/
theorem val_main_v27_eq (x0 : (⟨S100000x16, .f32⟩ : BufTy).Contents (Elt F)) (x1 : (⟨S2x3200000, .i32⟩ : BufTy).Contents (Elt F))
    (x2 : (⟨S16x16, .f32⟩ : BufTy).Contents (Elt F)) (x3 : (⟨S16, .f32⟩ : BufTy).Contents (Elt F)) :
    val_main_v27 (F := F) x0 x1 x2 x3 = mean (val_main_v8 (F := F) x0 x2 x3) x1 := rfl

end Cert.ReferenceIdeal.Mean

end
-- ==== Proof.KernelValue.lean ====
/-
  The idealized kernel's result as one function of its arguments.  The last boundary's contents at the result buffer
  are the second region's output array, which is the output layer of that region's entry contents; those are what
  the host operations between the regions make of the first region's exit contents — the mean aggregation of the
  hidden features, the hidden features themselves, the two bias vectors recast as rows, the weights untouched —; and
  the first region leaves the hidden features of the launch contents, its bias vector recast as a row.
-/
import proofs.«145777_j64484638982411_1_alg».proof.Proof.Gen.KernelIdeal.Frame
import proofs.«145777_j64484638982411_1_alg».proof.Proof.Region0
import proofs.«145777_j64484638982411_1_alg».proof.Proof.Region1
import proofs.«145777_j64484638982411_1_alg».proof.Proof.Mean
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

/-! ## The host operations before the first region, on any contents -/

theorem before_v0 (Wv : Valuation τ sig (Elt Ideal)) :
    after hostOps0 Wv (Proc.devRef .tc main_v0) = shapeCast S1x16 (Wv (Proc.devRef .tc main_arg3)) shapeCasts_S16_S1x16 := by
  dsimp only [hostOps0]; after_results; rfl
theorem before_arg0 (Wv : Valuation τ sig (Elt Ideal)) :
    after hostOps0 Wv (Proc.devRef .tc main_arg0) = Wv (Proc.devRef .tc main_arg0) := by
  dsimp only [hostOps0]; after_results
theorem before_arg1 (Wv : Valuation τ sig (Elt Ideal)) :
    after hostOps0 Wv (Proc.devRef .tc main_arg1) = Wv (Proc.devRef .tc main_arg1) := by
  dsimp only [hostOps0]; after_results
theorem before_arg2 (Wv : Valuation τ sig (Elt Ideal)) :
    after hostOps0 Wv (Proc.devRef .tc main_arg2) = Wv (Proc.devRef .tc main_arg2) := by
  dsimp only [hostOps0]; after_results
theorem before_arg5 (Wv : Valuation τ sig (Elt Ideal)) :
    after hostOps0 Wv (Proc.devRef .tc main_arg5) = Wv (Proc.devRef .tc main_arg5) := by
  dsimp only [hostOps0]; after_results
theorem before_arg8 (Wv : Valuation τ sig (Elt Ideal)) :
    after hostOps0 Wv (Proc.devRef .tc main_arg8) = Wv (Proc.devRef .tc main_arg8) := by
  dsimp only [hostOps0]; after_results

/-! ## The host operations between the regions, on any contents -/

set_option maxHeartbeats 1000000 in
/-- The aggregated features: the mean aggregation of the hidden-feature buffer over the edge list. -/
theorem between_v24 (Wv : Valuation τ sig (Elt Ideal)) :
    after hostOps1 Wv (Proc.devRef .tc main_v24)
      = Cert.ReferenceIdeal.Mean.mean (F := Ideal) (Wv (Proc.devRef .tc main_v1)) (Wv (Proc.devRef .tc main_arg1)) := by
  dsimp only [hostOps1]; after_results_simp; rfl
theorem between_v25 (Wv : Valuation τ sig (Elt Ideal)) :
    after hostOps1 Wv (Proc.devRef .tc main_v25) = shapeCast S1x16 (Wv (Proc.devRef .tc main_arg5)) shapeCasts_S16_S1x16 := by
  dsimp only [hostOps1]; after_results_simp; rfl
theorem between_v26 (Wv : Valuation τ sig (Elt Ideal)) :
    after hostOps1 Wv (Proc.devRef .tc main_v26) = shapeCast S1x32 (Wv (Proc.devRef .tc main_arg8)) shapeCasts_S32_S1x32 := by
  dsimp only [hostOps1]; after_results_simp; rfl
theorem between_v1 (Wv : Valuation τ sig (Elt Ideal)) :
    after hostOps1 Wv (Proc.devRef .tc main_v1) = Wv (Proc.devRef .tc main_v1) := by
  dsimp only [hostOps1]; after_results_simp

/-! ## The fold through the program, read at the buffers the regions use -/

variable (m : (ℓ : Loc nD τ sig) → Buf (Elt Ideal) ℓ) (ρ : Dev nD → PrngReg)

/-- The first region leaves the hidden features of the launch contents, the bias vector recast as a row. -/
theorem hidden_arr (c : Dev nD) :
    W2 m ρ c (Proc.devRef .tc main_v1)
      = Net.hidden (m ((c : Thread nD τ).loc main_arg0)) (m ((c : Thread nD τ).loc main_arg2))
          (shapeCast S1x16 (m ((c : Thread nD τ).loc main_arg3)) shapeCasts_S16_S1x16) := by
  refine (W2_arr m ρ c 3).trans ((Region0.final (V1 m ρ) c).trans ?_)
  show Net.hidden (W1 m ρ c (Proc.devRef .tc main_arg0)) (W1 m ρ c (Proc.devRef .tc main_arg2)) (W1 m ρ c (Proc.devRef .tc main_v0)) = _
  rw [show W1 m ρ c (Proc.devRef .tc main_arg0) = m ((c : Thread nD τ).loc main_arg0) from before_arg0 (W0 m ρ c),
    show W1 m ρ c (Proc.devRef .tc main_arg2) = m ((c : Thread nD τ).loc main_arg2) from before_arg2 (W0 m ρ c),
    show W1 m ρ c (Proc.devRef .tc main_v0) = shapeCast S1x16 (m ((c : Thread nD τ).loc main_arg3)) shapeCasts_S16_S1x16 from before_v0 (W0 m ρ c)]

/-- The first region writes none of the arguments the host operations between the regions read. -/
theorem exit0_arg1 (c : Dev nD) : W2 m ρ c (Proc.devRef .tc main_arg1) = m ((c : Thread nD τ).loc main_arg1) :=
  (W2_of_ne m ρ c main_arg1 (by decide)).trans (before_arg1 (W0 m ρ c))
theorem exit0_arg5 (c : Dev nD) : W2 m ρ c (Proc.devRef .tc main_arg5) = m ((c : Thread nD τ).loc main_arg5) :=
  (W2_of_ne m ρ c main_arg5 (by decide)).trans (before_arg5 (W0 m ρ c))
theorem exit0_arg8 (c : Dev nD) : W2 m ρ c (Proc.devRef .tc main_arg8) = m ((c : Thread nD τ).loc main_arg8) :=
  (W2_of_ne m ρ c main_arg8 (by decide)).trans (before_arg8 (W0 m ρ c))

/-- The weights the second region reads are as launched when it is entered: it only reads them (an input window's
    array ends as it was entered), and they end as launched. -/
theorem entry1_arg4 (c : Dev nD) : W3 m ρ c (Proc.devRef .tc main_arg4) = m ((c : Thread nD τ).loc main_arg4) :=
  ((W4_arr m ρ c 2).trans (((dat1 (V3 m ρ) c).arrAt_in 2 rfl _).trans (A_eq1 (V3 m ρ) c 2))).symm.trans (W4_main_arg4 m ρ c)
theorem entry1_arg6 (c : Dev nD) : W3 m ρ c (Proc.devRef .tc main_arg6) = m ((c : Thread nD τ).loc main_arg6) :=
  ((W4_arr m ρ c 4).trans (((dat1 (V3 m ρ) c).arrAt_in 4 rfl _).trans (A_eq1 (V3 m ρ) c 4))).symm.trans (W4_main_arg6 m ρ c)
theorem entry1_arg7 (c : Dev nD) : W3 m ρ c (Proc.devRef .tc main_arg7) = m ((c : Thread nD τ).loc main_arg7) :=
  ((W4_arr m ρ c 5).trans (((dat1 (V3 m ρ) c).arrAt_in 5 rfl _).trans (A_eq1 (V3 m ρ) c 5))).symm.trans (W4_main_arg7 m ρ c)

/-- THE RESULT: the output layer of the mean aggregation of the hidden features and of the hidden features, all of
    the launch contents, the three bias vectors recast as rows. -/
theorem result_eq (c : Dev nD) :
    W4 m ρ c (Proc.devRef .tc main_v27)
      = Net.output
          (Cert.ReferenceIdeal.Mean.mean (F := Ideal)
            (Net.hidden (m ((c : Thread nD τ).loc main_arg0)) (m ((c : Thread nD τ).loc main_arg2))
              (shapeCast S1x16 (m ((c : Thread nD τ).loc main_arg3)) shapeCasts_S16_S1x16))
            (m ((c : Thread nD τ).loc main_arg1)))
          (Net.hidden (m ((c : Thread nD τ).loc main_arg0)) (m ((c : Thread nD τ).loc main_arg2))
            (shapeCast S1x16 (m ((c : Thread nD τ).loc main_arg3)) shapeCasts_S16_S1x16))
          (m ((c : Thread nD τ).loc main_arg4))
          (shapeCast S1x16 (m ((c : Thread nD τ).loc main_arg5)) shapeCasts_S16_S1x16)
          (m ((c : Thread nD τ).loc main_arg6)) (m ((c : Thread nD τ).loc main_arg7))
          (shapeCast S1x32 (m ((c : Thread nD τ).loc main_arg8)) shapeCasts_S32_S1x32) := by
  refine (W4_arr m ρ c 7).trans ((Region1.final (V3 m ρ) c).trans ?_)
  show Net.output (W3 m ρ c (Proc.devRef .tc main_v24)) (W3 m ρ c (Proc.devRef .tc main_v1)) (W3 m ρ c (Proc.devRef .tc main_arg4))
      (W3 m ρ c (Proc.devRef .tc main_v25)) (W3 m ρ c (Proc.devRef .tc main_arg6)) (W3 m ρ c (Proc.devRef .tc main_arg7))
      (W3 m ρ c (Proc.devRef .tc main_v26)) = _
  rw [show W3 m ρ c (Proc.devRef .tc main_v24)
        = Cert.ReferenceIdeal.Mean.mean (F := Ideal) (W2 m ρ c (Proc.devRef .tc main_v1)) (W2 m ρ c (Proc.devRef .tc main_arg1))
        from between_v24 (W2 m ρ c),
    show W3 m ρ c (Proc.devRef .tc main_v1) = W2 m ρ c (Proc.devRef .tc main_v1) from between_v1 (W2 m ρ c),
    show W3 m ρ c (Proc.devRef .tc main_v25) = shapeCast S1x16 (W2 m ρ c (Proc.devRef .tc main_arg5)) shapeCasts_S16_S1x16
        from between_v25 (W2 m ρ c),
    show W3 m ρ c (Proc.devRef .tc main_v26) = shapeCast S1x32 (W2 m ρ c (Proc.devRef .tc main_arg8)) shapeCasts_S32_S1x32
        from between_v26 (W2 m ρ c),
    hidden_arr, exit0_arg1, exit0_arg5, exit0_arg8, entry1_arg4, entry1_arg6, entry1_arg7]

end Cert.KernelIdeal.Whole

end
-- ==== Proof.RefValue.lean ====
/-
  The reference, read entry by entry on the extended reals: its first rectified layer is the hidden-feature array of
  the inputs, and its result is the output layer of the mean aggregation of those hidden features and of the hidden
  features themselves.  A product with a weight matrix is the sum over the sixteen inner positions; a bias vector
  spread over the rows contributes its entry of the same column.
-/
import proofs.«145777_j64484638982411_1_alg».proof.Proof.Gen.ReferenceIdeal.Read
import proofs.«145777_j64484638982411_1_alg».proof.Proof.Mean
import proofs.«145777_j64484638982411_1_alg».proof.Proof.Net

noncomputable section

namespace Cert.ReferenceIdeal.RefValue

open Cert.ReferenceIdeal Cert.ReferenceIdeal.Gen Cert.ReferenceIdeal.Read Cert.ReferenceIdeal.Mean
open Idealize.ShloMosaic Idealize.ShloMosaic.TcCoe Idealize.ShloMosaic.ValueIdx

/-- The reference's hidden features: max (Σ_l x(n,l)·w(l,j) + b(j), 0), the bias as the row [1,16]. -/
theorem hidden_eq (x0 : (⟨S100000x16, .f32⟩ : BufTy).Contents (Elt Ideal)) (x2 : (⟨S16x16, .f32⟩ : BufTy).Contents (Elt Ideal))
    (x3 : (⟨S16, .f32⟩ : BufTy).Contents (Elt Ideal)) :
    val_main_v8 (F := Ideal) x0 x2 x3 = Net.hidden x0 x2 (val_main_v5 (F := Ideal) x3) := by
  funext i
  obtain ⟨n, j, rfl⟩ : ∃ (n : Fin 100000) (j : Fin 16), i = ix2 n j := ⟨i 0, i 1, eq_ix2 i⟩
  have el : ∀ k : Fin 16, lidx_main_v4 (ix2 n j) k = ix2 n k := fun k =>
    funext fun a => Fin.ext (by match a with | ⟨0, _⟩ => rfl | ⟨1, _⟩ => rfl)
  have er : ∀ k : Fin 16, ridx_main_v4 (ix2 n j) k = ix2 k j := fun k =>
    funext fun a => Fin.ext (by match a with | ⟨0, _⟩ => rfl | ⟨1, _⟩ => rfl)
  have eb : idx_main_v6 (ix2 n j) = ix2 (0 : Fin 1) j :=
    funext fun a => Fin.ext (by match a with | ⟨0, _⟩ => rfl | ⟨1, _⟩ => rfl)
  rw [Net.hidden_ix2, val_main_v8_apply, val_main_v7_apply, val_main_v4_apply, val_main_v6_apply, val_main_call0_v0_apply,
    val_main_call0_cst_apply]
  simp only [el, er, eb]
  rfl

/-- The reference's result: the output layer of the mean aggregation of the hidden features and of the hidden
    features, the biases as rows. -/
theorem output_eq (x0 : (⟨S100000x16, .f32⟩ : BufTy).Contents (Elt Ideal)) (x1 : (⟨S2x3200000, .i32⟩ : BufTy).Contents (Elt Ideal))
    (x2 : (⟨S16x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x16, .f32⟩ : BufTy).Contents (Elt Ideal)) (x7 : (⟨S16x32, .f32⟩ : BufTy).Contents (Elt Ideal))
    (x8 : (⟨S32, .f32⟩ : BufTy).Contents (Elt Ideal)) :
    val_main_v38 (F := Ideal) x0 x1 x2 x3 x4 x5 x6 x7 x8
      = Net.output (mean (val_main_v8 (F := Ideal) x0 x2 x3) x1) (val_main_v8 (F := Ideal) x0 x2 x3) x4 (val_main_v29 (F := Ideal) x5) x6 x7
          (val_main_v36 (F := Ideal) x8) := by
  funext i
  obtain ⟨n, j, rfl⟩ : ∃ (n : Fin 100000) (j : Fin 32), i = ix2 n j := ⟨i 0, i 1, eq_ix2 i⟩
  have el35 : ∀ k : Fin 16, lidx_main_v35 (ix2 n j) k = ix2 n k := fun k =>
    funext fun a => Fin.ext (by match a with | ⟨0, _⟩ => rfl | ⟨1, _⟩ => rfl)
  have er35 : ∀ k : Fin 16, ridx_main_v35 (ix2 n j) k = ix2 k j := fun k =>
    funext fun a => Fin.ext (by match a with | ⟨0, _⟩ => rfl | ⟨1, _⟩ => rfl)
  have eb37 : idx_main_v37 (ix2 n j) = ix2 (0 : Fin 1) j :=
    funext fun a => Fin.ext (by match a with | ⟨0, _⟩ => rfl | ⟨1, _⟩ => rfl)
  have el28 : ∀ k l : Fin 16, lidx_main_v28 (ix2 n k) l = ix2 n l := fun k l =>
    funext fun a => Fin.ext (by match a with | ⟨0, _⟩ => rfl | ⟨1, _⟩ => rfl)
  have er28 : ∀ k l : Fin 16, ridx_main_v28 (ix2 n k) l = ix2 l k := fun k l =>
    funext fun a => Fin.ext (by match a with | ⟨0, _⟩ => rfl | ⟨1, _⟩ => rfl)
  have el32 : ∀ k l : Fin 16, lidx_main_v32 (ix2 n k) l = ix2 n l := fun k l =>
    funext fun a => Fin.ext (by match a with | ⟨0, _⟩ => rfl | ⟨1, _⟩ => rfl)
  have er32 : ∀ k l : Fin 16, ridx_main_v32 (ix2 n k) l = ix2 l k := fun k l =>
    funext fun a => Fin.ext (by match a with | ⟨0, _⟩ => rfl | ⟨1, _⟩ => rfl)
  have eb30 : ∀ k : Fin 16, idx_main_v30 (ix2 n k) = ix2 (0 : Fin 1) k := fun k =>
    funext fun a => Fin.ext (by match a with | ⟨0, _⟩ => rfl | ⟨1, _⟩ => rfl)
  rw [Net.output_ix2, val_main_v38_apply, val_main_v35_apply, val_main_v37_apply]
  simp only [el35, er35, eb37]
  unfold Net.outputAt
  refine congrArg (· + val_main_v36 (F := Ideal) x8 (ix2 (0 : Fin 1) j)) (Finset.sum_congr rfl fun k _ => ?_)
  rw [val_main_v34_apply, val_main_v33_apply, val_main_v31_apply, val_main_v28_apply, val_main_v30_apply, val_main_v32_apply,
    val_main_call1_v0_apply, val_main_call1_cst_apply, val_main_v27_eq]
  simp only [el28, er28, el32, er32, eb30]
  rfl

end Cert.ReferenceIdeal.RefValue

end
-- ==== Proof.Rows.lean ====
/-
  A bias vector as a row.  The kernel's program recasts the vector [n] to the shape [1, n]; the reference spreads it
  along a new leading axis of extent one.  Both rows hold, in column `q`, the vector's entry `q`.
-/
import proofs.«145777_j64484638982411_1_alg».proof.KernelIdeal
import proofs.«145777_j64484638982411_1_alg».proof.Proof.Gen.KernelIdeal
import proofs.«145777_j64484638982411_1_alg».proof.Proof.Gen.ReferenceIdeal.Read
import Idealize.ShloMosaic.Lib.Pipeline.Value

noncomputable section

namespace Cert.Rows

open Idealize.ShloMosaic Idealize.ShloMosaic.TcCoe
open Cert.ReferenceIdeal.Read Cert.KernelIdeal.Gen Cert.ReferenceIdeal.Gen

theorem row16_eq (b : (⟨Cert.ReferenceIdeal.S16, .f32⟩ : BufTy).Contents (Elt Ideal)) :
    shapeCast Cert.KernelIdeal.S1x16 b Cert.KernelIdeal.Gen.shapeCasts_S16_S1x16 = val_main_v5 (F := Ideal) b := by
  funext i
  rw [val_main_v5_apply]
  exact shapeCast_apply b Cert.KernelIdeal.Gen.shapeCasts_S16_S1x16 i (idx_main_v5 i)
    (by rewrite [Shape.rowMajor_val_one, Shape.rowMajor_val_two]; have h0 : (i 0).val < 1 := (i 0).isLt; show (i 1).val = (i 0).val * 16 + (i 1).val; omega)

theorem row16_eq' (b : (⟨Cert.ReferenceIdeal.S16, .f32⟩ : BufTy).Contents (Elt Ideal)) :
    shapeCast Cert.KernelIdeal.S1x16 b Cert.KernelIdeal.Gen.shapeCasts_S16_S1x16 = val_main_v29 (F := Ideal) b := by
  funext i
  rw [val_main_v29_apply]
  exact shapeCast_apply b Cert.KernelIdeal.Gen.shapeCasts_S16_S1x16 i (idx_main_v29 i)
    (by rewrite [Shape.rowMajor_val_one, Shape.rowMajor_val_two]; have h0 : (i 0).val < 1 := (i 0).isLt; show (i 1).val = (i 0).val * 16 + (i 1).val; omega)

theorem row32_eq (b : (⟨Cert.ReferenceIdeal.S32, .f32⟩ : BufTy).Contents (Elt Ideal)) :
    shapeCast Cert.KernelIdeal.S1x32 b Cert.KernelIdeal.Gen.shapeCasts_S32_S1x32 = val_main_v36 (F := Ideal) b := by
  funext i
  rw [val_main_v36_apply]
  exact shapeCast_apply b Cert.KernelIdeal.Gen.shapeCasts_S32_S1x32 i (idx_main_v36 i)
    (by rewrite [Shape.rowMajor_val_one, Shape.rowMajor_val_two]; have h0 : (i 0).val < 1 := (i 0).isLt; show (i 1).val = (i 0).val * 32 + (i 1).val; omega)

end Cert.Rows

end
-- ==== Proof.lean ====
/-
  A three-layer graph network on 100000 nodes and 3200000 edges: hidden features relu (x·W₁ + b₁); per node the mean of
  the hidden features over its incoming edges; then relu (mean·W_l + b_l + hidden·W_r)·W₂ + b₂.  The kernel program
  computes the two dense stages in row blocks of 5000 nodes and the mean aggregation with the same host operations
  as the reference.  On the extended reals a change of float format is the identity and a product with a weight
  matrix is the same sum over sixteen inner positions on both sides, so both programs compute one function of the
  arguments, entry by entry: no law of arithmetic beyond reading both sides at an entry is used, and the finiteness
  of the inputs is not needed.
-/
import proofs.«145777_j64484638982411_1_alg».proof.Defs
import proofs.«145777_j64484638982411_1_alg».proof.Proof.Gen.Kernel
import proofs.«145777_j64484638982411_1_alg».proof.Proof.Gen.Kernel.Skeleton
import proofs.«145777_j64484638982411_1_alg».proof.Proof.Gen.Kernel.Launch
import proofs.«145777_j64484638982411_1_alg».proof.Proof.Gen.Kernel.Points
import proofs.«145777_j64484638982411_1_alg».proof.Proof.Gen.Kernel.Frame
import proofs.«145777_j64484638982411_1_alg».proof.Proof.Gen.KernelIdeal
import proofs.«145777_j64484638982411_1_alg».proof.Proof.Gen.KernelIdeal.Skeleton
import proofs.«145777_j64484638982411_1_alg».proof.Proof.Gen.KernelIdeal.Launch
import proofs.«145777_j64484638982411_1_alg».proof.Proof.Gen.KernelIdeal.Points
import proofs.«145777_j64484638982411_1_alg».proof.Proof.Gen.KernelIdeal.Frame
import proofs.«145777_j64484638982411_1_alg».proof.Proof.Gen.ReferenceIdeal
import proofs.«145777_j64484638982411_1_alg».proof.Proof.Gen.ReferenceIdeal.Run
import proofs.«145777_j64484638982411_1_alg».proof.Proof.Gen.ReferenceIdeal.Read
import proofs.«145777_j64484638982411_1_alg».proof.Proof.Gen.Pre_finite_inputs
import proofs.«145777_j64484638982411_1_alg».proof.Proof.KernelRun
import proofs.«145777_j64484638982411_1_alg».proof.Proof.KernelValue
import proofs.«145777_j64484638982411_1_alg».proof.Proof.RefValue
import proofs.«145777_j64484638982411_1_alg».proof.Proof.Rows
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading on the extended reals. -/
theorem preserves : Cert.preserves_Kernel_KernelIdeal := trivial

/-- Both programs end with the output layer of the mean aggregation of the hidden features and of the hidden
    features of the arguments: the kernel program by its two regions' arrays read through the fold of its boundary
    contents, the reference by its operations read at an entry; the bias vectors enter as the same rows. -/
theorem algebraic : Cert.algebraic_KernelIdeal_ReferenceIdeal := by
  intro m ρ m' ρ' _ hagree
  refine ⟨fun c => Cert.KernelIdeal.Gen.W4 m ρ c (Proc.devRef .tc Cert.KernelIdeal.main_v27), Cert.KernelIdeal.Out.run_last m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v38_eq, Cert.ReferenceIdeal.RefValue.output_eq, Cert.ReferenceIdeal.RefValue.hidden_eq]
  refine Eq.trans ?_ (Cert.KernelIdeal.Whole.result_eq m ρ c).symm
  rw [h0, h1, h2, h3, h4, h5, h6, h7, h8, ← Cert.Rows.row16_eq, ← Cert.Rows.row16_eq', ← Cert.Rows.row32_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
